-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1000x256 : S_.BroadcastsInDim S1000x256 (![] : Fin 0 → Fin S1000x256.rank)
  reducesTo_S1000x256_S_d0_1 : S1000x256.ReducesTo [0, 1] S_
  bcast_S_S1000 : S_.BroadcastsInDim S1000 (![] : Fin 0 → Fin S1000.rank)
  reducesTo_S1000_S_d0 : S1000.ReducesTo [0] S_
  reducesTo_S_S_d : S_.ReducesTo [] S_

variable [Facts]

def fn_part2 {F : FTy → Type} [FloatOps F] (main_arg5 : FVec F S256 .f32) (main_arg8 : FVec F S1000 .f32) (main_arg9 : FVec F S_ .f32) (main_v33 : IVec S_ 1) : IVec S_ 1 :=
  let main_v34 : FVec F S1000 .f32 := Host.absf main_arg8
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_cst_16 : FVec F S_ .f32 := constant S_ .f32 0x00000000#32
  let main_v43 : FVec F S256 .f32 := broadcastInDim S256 ![] bcast_S_S256 main_cst_16
  let main_v44 : IVec S256 1 := cmpf .oge main_arg5 main_v43
  let main_c_17 : IVec S_ 1 := constantI S_ 1 1#1
  let main_v45 : IVec S_ 1 := (fun x v => Host.reduce IntOp.andi x v reducesTo_S256_S_d0 h_S_) main_v44 main_c_17
  let main_v46 : IVec S_ 1 := andi main_v42 main_v45
  main_v46

def fn_part1 {F : FTy → Type} [FloatOps F] (main_arg5 : FVec F S256 .f32) (main_arg6 : FVec F S1000x256 .f32) (main_arg7 : FVec F S1000x256 .f32) (main_arg8 : FVec F S1000 .f32) (main_arg9 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1000x256 .f32 := Host.absf main_arg6
  let main_cst_8 : FVec F S_ .f32 := constant S_ .f32 0x7F800000#32
  let main_v25 : FVec F S1000x256 .f32 := broadcastInDim S1000x256 ![] bcast_S_S1000x256 main_cst_8
  let main_v26 : IVec S1000x256 1 := cmpf .olt main_v24 main_v25
  let main_c_9 : IVec S_ 1 := constantI S_ 1 1#1
  let main_v27 : IVec S_ 1 := (fun x v => Host.reduce IntOp.andi x v reducesTo_S1000x256_S_d0_1 h_S_) main_v26 main_c_9
  let main_v28 : IVec S_ 1 := andi main_v23 main_v27
  let main_v29 : FVec F S1000x256 .f32 := Host.absf main_arg7
  let main_cst_10 : FVec F S_ .f32 := constant S_ .f32 0x7F800000#32
  let main_v30 : FVec F S1000x256 .f32 := broadcastInDim S1000x256 ![] bcast_S_S1000x256 main_cst_10
  let main_v31 : IVec S1000x256 1 := cmpf .olt main_v29 main_v30
  let main_c_11 : IVec S_ 1 := constantI S_ 1 1#1
  let main_v32 : IVec S_ 1 := (fun x v => Host.reduce IntOp.andi x v reducesTo_S1000x256_S_d0_1 h_S_) main_v31 main_c_11
  let main_v33 : IVec S_ 1 := andi main_v28 main_v32
  fn_part2 (F := F) main_arg5 main_arg8 main_arg9 main_v33

def fn {F : FTy → Type} [FloatOps F] (main_arg0 : FVec F S64x256x56x56 .f32) (main_arg1 : IVec S64 32) (main_arg2 : FVec F S256 .f32) (main_arg3 : FVec F S256 .f32) (main_arg4 : FVec F S256 .f32) (main_arg5 : FVec F S256 .f32) (main_arg6 : FVec F S1000x256 .f32) (main_arg7 : FVec F S1000x256 .f32) (main_arg8 : FVec F S1000 .f32) (main_arg9 : FVec F S_ .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩
abbrev S64x1 : Shape := ⟨2, ![64, 1]⟩
abbrev S64x256 : Shape := ⟨2, ![64, 256]⟩
abbrev S1x256 : Shape := ⟨2, ![1, 256]⟩
abbrev S64x256x1 : Shape := ⟨3, ![64, 256, 1]⟩
abbrev S64x256x3136 : Shape := ⟨3, ![64, 256, 3136]⟩
abbrev S2x256x3136 : Shape := ⟨3, ![2, 256, 3136]⟩
abbrev S2x256x1 : Shape := ⟨3, ![2, 256, 1]⟩

abbrev nBuf : Space → Nat
  | .hbm => 92
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1000x256, .f32⟩
  | .hbm, ⟨7, _⟩ => ⟨S1000x256, .f32⟩
  | .hbm, ⟨8, _⟩ => ⟨S1000, .f32⟩
  | .hbm, ⟨9, _⟩ => ⟨S_, .f32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S64, .f32⟩
  | .hbm, ⟨23, _⟩ => ⟨S64, .i1⟩
  | .hbm, ⟨24, _⟩ => ⟨S64, .i1⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x256, .f32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S64x1, .i32⟩
  | .hbm, ⟨43, _⟩ => ⟨S64x256, .f32⟩
  | .hbm, ⟨44, _⟩ => ⟨S_, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S64x256, .f32⟩
  | .hbm, ⟨50, _⟩ => ⟨S64x256, .f32⟩
  | .hbm, ⟨51, _⟩ => ⟨S64x256, .f32⟩
  | .hbm, ⟨52, _⟩ => ⟨S64x256, .f32⟩
  | .hbm, ⟨53, _⟩ => ⟨S_, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S64x256, .f32⟩
  | .hbm, ⟨59, _⟩ => ⟨S64x256, .f32⟩
  | .hbm, ⟨60, _⟩ => ⟨S64x256, .f32⟩
  | .hbm, ⟨61, _⟩ => ⟨S64x256, .f32⟩
  | .hbm, ⟨62, _⟩ => ⟨S_, .f32⟩
  | .hbm, ⟨63, _⟩ => ⟨S_, .f32⟩
  | .hbm, ⟨64, _⟩ => ⟨S64x256, .f32⟩
  | .hbm, ⟨65, _⟩ => ⟨S64x256, .f32⟩
  | .hbm, ⟨66, _⟩ => ⟨S64x1, .i1⟩
  | .hbm, ⟨67, _⟩ => ⟨S1x256, .f32⟩
  | .hbm, ⟨68, _⟩ => ⟨S64x256, .i1⟩
  | .hbm, ⟨69, _⟩ => ⟨S64x256, .f32⟩
  | .hbm, ⟨70, _⟩ => ⟨S64x256, .f32⟩
  | .hbm, ⟨71, _⟩ => ⟨S64x1, .i1⟩
  | .hbm, ⟨72, _⟩ => ⟨S1x256, .f32⟩
  | .hbm, ⟨73, _⟩ => ⟨S64x256, .i1⟩
  | .hbm, ⟨74, _⟩ => ⟨S64x256, .f32⟩
  | .hbm, ⟨75, _⟩ => ⟨S64x256, .f32⟩
  | .hbm, ⟨76, _⟩ => ⟨S_, .f32⟩
  | .hbm, ⟨77, _⟩ => ⟨S64x256, .f32⟩
  | .hbm, ⟨78, _⟩ => ⟨S64x256, .f32⟩
  | .hbm, ⟨79, _⟩ => ⟨S64x256, .f32⟩
  | .hbm, ⟨80, _⟩ => ⟨S1x256, .f32⟩
  | .hbm, ⟨81, _⟩ => ⟨S64x256, .f32⟩
  | .hbm, ⟨82, _⟩ => ⟨S64x256, .f32⟩
  | .hbm, ⟨83, _⟩ => ⟨S1x256, .f32⟩
  | .hbm, ⟨84, _⟩ => ⟨S64x256, .f32⟩
  | .hbm, ⟨85, _⟩ => ⟨S64x256, .f32⟩
  | .hbm, ⟨86, _⟩ => ⟨S64x256, .f32⟩
  | .hbm, ⟨87, _⟩ => ⟨S64x256x1, .f32⟩
  | .hbm, ⟨88, _⟩ => ⟨S64x256x1, .f32⟩
  | .hbm, ⟨89, _⟩ => ⟨S64x256x3136, .f32⟩
  | .hbm, ⟨90, _⟩ => ⟨S64x256x3136, .f32⟩
  | .hbm, ⟨91, _⟩ => ⟨S64x256x56x56, .f32⟩
  | .local _ .vmem, ⟨0, _⟩ => ⟨S2x256x3136, .f32⟩
  | .local _ .vmem, ⟨1, _⟩ => ⟨S2x256x3136, .f32⟩
  | .local _ .vmem, ⟨2, _⟩ => ⟨S2x256x1, .f32⟩
  | .local _ .vmem, ⟨3, _⟩ => ⟨S2x256x1, .f32⟩
  | .local _ .vmem, ⟨4, _⟩ => ⟨S2x256x1, .f32⟩
  | .local _ .vmem, ⟨5, _⟩ => ⟨S2x256x1, .f32⟩
  | .local _ .vmem, ⟨6, _⟩ => ⟨S2x256x3136, .f32⟩
  | .local _ .vmem, ⟨7, _⟩ => ⟨S2x256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_v0 : Ref sig .tc := ⟨.hbm, 73, rfl⟩
abbrev main_call2_v1 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S_S1x256 : S_.BroadcastsInDim S1x256 (![] : Fin 0 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  shapeCasts_S64x256_S64x256x1 : S64x256.ShapeCasts S64x256x1
  shapeCasts_S64x256x56x56_S64x256x3136 : S64x256x56x56.ShapeCasts S64x256x3136
  inb_S2x256x3136_S2x256x3136_0_0_0 : ∀ a, (![0, 0, 0] : Fin 3 → Nat) a + S2x256x3136.size a ≤ S2x256x3136.size a
  h_S2x256x3136 : 0 < S2x256x3136.numel
  shapeCasts_S2x256x3136_S2x256x3136 : S2x256x3136.ShapeCasts S2x256x3136
  inb_S2x256x1_S2x256x1_0_0_0 : ∀ a, (![0, 0, 0] : Fin 3 → Nat) a + S2x256x1.size a ≤ S2x256x1.size a
  h_S2x256x1 : 0 < S2x256x1.numel
  shapeCasts_S2x256x1_S2x256x1 : S2x256x1.ShapeCasts S2x256x1
  broadcasts_S2x256x1_S2x256x3136 : S2x256x1.Broadcasts S2x256x3136
  shapeCasts_S64x256x3136_S64x256x56x56 : S64x256x3136.ShapeCasts S64x256x56x56
  gather_S1000_S64x1_S64_n_0_n_n_0_1_1_wf : GatherDims.WF S1000 S64x1 S64 [] [0] [] [0] [] 1 ![1]
  gather_S1000x256_S64x1_S64x256_1_0_n_n_0_1_1256_wf : GatherDims.WF S1000x256 S64x1 S64x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x3136.size a ≤ S64x256x3136.size a
  hwx0_0 : ∀ i : grid0.Coords, EltTy.bits .f32 = 32 ∨ (Rect.block (s := S64x256x3136) S2x256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1.size a ≤ S64x256x1.size a
  hwx0_1 : ∀ i : grid0.Coords, EltTy.bits .f32 = 32 ∨ (Rect.block (s := S64x256x1) S2x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1.size a ≤ S64x256x1.size a
  hwx0_2 : ∀ i : grid0.Coords, EltTy.bits .f32 = 32 ∨ (Rect.block (s := S64x256x1) S2x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x3136.size a ≤ S64x256x3136.size a
  hwx0_3 : ∀ i : grid0.Coords, EltTy.bits .f32 = 32 ∨ (Rect.block (s := S64x256x3136) S2x256x3136.size (cc0_transform_3 i) (hinb0_3 i)).WholeWords (EltTy.packing .f32)

variable [Facts₀]

def gather_S1000_S64x1_S64_n_0_n_n_0_1_1 : GatherDims S1000 S64x1 S64 where
  offsetDims := []
  collapsedSliceDims := [0]
  operandBatchingDims := []
  startIndicesBatchingDims := []
  startIndexMap := [0]
  indexVectorDim := 1
  sliceSizes := ![1]
  wf := gather_S1000_S64x1_S64_n_0_n_n_0_1_1_wf
def gather_S1000x256_S64x1_S64x256_1_0_n_n_0_1_1256 : GatherDims S1000x256 S64x1 S64x256 where
  offsetDims := [1]
  collapsedSliceDims := [0]
  operandBatchingDims := []
  startIndicesBatchingDims := []
  startIndexMap := [0]
  indexVectorDim := 1
  sliceSizes := ![1, 256]
  wf := gather_S1000x256_S64x1_S64x256_1_0_n_n_0_1_1256_wf

abbrev win0_0 : Pipeline.Window sig grid0 :=
  Pipeline.Window.ofSpec (Memref.whole main_v61) S2x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S2x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S2x256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩
abbrev S64x1 : Shape := ⟨2, ![64, 1]⟩
abbrev S1x256 : Shape := ⟨2, ![1, 256]⟩
abbrev S64x256 : Shape := ⟨2, ![64, 256]⟩
abbrev S64x256x1x1 : Shape := ⟨4, ![64, 256, 1, 1]⟩
abbrev S1x256x1x1 : Shape := ⟨4, ![1, 256, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1000x256, .f32⟩
  | .hbm, ⟨7, _⟩ => ⟨S1000x256, .f32⟩
  | .hbm, ⟨8, _⟩ => ⟨S1000, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .i1⟩
  | .hbm, ⟨24, _⟩ => ⟨S64, .i1⟩
  | .hbm, ⟨25, _⟩ => ⟨S64, .i1⟩
  | .hbm, ⟨26, _⟩ => ⟨S_, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S64x256, .f32⟩
  | .hbm, ⟨40, _⟩ => ⟨S64x256, .f32⟩
  | .hbm, ⟨41, _⟩ => ⟨S64x256, .f32⟩
  | .hbm, ⟨42, _⟩ => ⟨S64x256, .f32⟩
  | .hbm, ⟨43, _⟩ => ⟨S64x256, .f32⟩
  | .hbm, ⟨44, _⟩ => ⟨S_, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x256, .f32⟩
  | .hbm, ⟨58, _⟩ => ⟨S64x256, .f32⟩
  | .hbm, ⟨59, _⟩ => ⟨S64x256, .f32⟩
  | .hbm, ⟨60, _⟩ => ⟨S64x256, .f32⟩
  | .hbm, ⟨61, _⟩ => ⟨S64x256, .f32⟩
  | .hbm, ⟨62, _⟩ => ⟨S_, .f32⟩
  | .hbm, ⟨63, _⟩ => ⟨S_, .f32⟩
  | .hbm, ⟨64, _⟩ => ⟨S64x256, .f32⟩
  | .hbm, ⟨65, _⟩ => ⟨S64x256, .f32⟩
  | .hbm, ⟨66, _⟩ => ⟨S64x1, .i1⟩
  | .hbm, ⟨67, _⟩ => ⟨S1x256, .f32⟩
  | .hbm, ⟨68, _⟩ => ⟨S64x256, .i1⟩
  | .hbm, ⟨69, _⟩ => ⟨S64x256, .f32⟩
  | .hbm, ⟨70, _⟩ => ⟨S64x256, .f32⟩
  | .hbm, ⟨71, _⟩ => ⟨S64x1, .i1⟩
  | .hbm, ⟨72, _⟩ => ⟨S1x256, .f32⟩
  | .hbm, ⟨73, _⟩ => ⟨S64x256, .i1⟩
  | .hbm, ⟨74, _⟩ => ⟨S64x256, .f32⟩
  | .hbm, ⟨75, _⟩ => ⟨S64x256, .f32⟩
  | .hbm, ⟨76, _⟩ => ⟨S64x256x1x1, .f32⟩
  | .hbm, ⟨77, _⟩ => ⟨S64x256x56x56, .f32⟩
  | .hbm, ⟨78, _⟩ => ⟨S64x256x56x56, .f32⟩
  | .hbm, ⟨79, _⟩ => ⟨S_, .f32⟩
  | .hbm, ⟨80, _⟩ => ⟨S64x256, .f32⟩
  | .hbm, ⟨81, _⟩ => ⟨S64x256, .f32⟩
  | .hbm, ⟨82, _⟩ => ⟨S64x256, .f32⟩
  | .hbm, ⟨83, _⟩ => ⟨S64x256x1x1, .f32⟩
  | .hbm, ⟨84, _⟩ => ⟨S64x256x56x56, .f32⟩
  | .hbm, ⟨85, _⟩ => ⟨S64x256x56x56, .f32⟩
  | .hbm, ⟨86, _⟩ => ⟨S1x256x1x1, .f32⟩
  | .hbm, ⟨87, _⟩ => ⟨S64x256x56x56, .f32⟩
  | .hbm, ⟨88, _⟩ => ⟨S64x256x56x56, .f32⟩
  | .hbm, ⟨89, _⟩ => ⟨S1x256x1x1, .f32⟩
  | .hbm, ⟨90, _⟩ => ⟨S64x256x56x56, .f32⟩
  | .hbm, ⟨91, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_v0 : Ref sig .tc := ⟨.hbm, 73, rfl⟩
abbrev main_call2_v1 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S_S1x256 : S_.BroadcastsInDim S1x256 (![] : Fin 0 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  gather_S1000_S64x1_S64_n_0_n_n_0_1_1_wf : GatherDims.WF S1000 S64x1 S64 [] [0] [] [0] [] 1 ![1]
  gather_S1000x256_S64x1_S64x256_1_0_n_n_0_1_1256_wf : GatherDims.WF S1000x256 S64x1 S64x256 [1] [0] [] [0] [] 1 ![1, 256]

variable [Facts₀]

def gather_S1000_S64x1_S64_n_0_n_n_0_1_1 : GatherDims S1000 S64x1 S64 where
  offsetDims := []
  collapsedSliceDims := [0]
  operandBatchingDims := []
  startIndicesBatchingDims := []
  startIndexMap := [0]
  indexVectorDim := 1
  sliceSizes := ![1]
  wf := gather_S1000_S64x1_S64_n_0_n_n_0_1_1_wf
def gather_S1000x256_S64x1_S64x256_1_0_n_n_0_1_1256 : GatherDims S1000x256 S64x1 S64x256 where
  offsetDims := [1]
  collapsedSliceDims := [0]
  operandBatchingDims := []
  startIndicesBatchingDims := []
  startIndexMap := [0]
  indexVectorDim := 1
  sliceSizes := ![1, 256]
  wf := gather_S1000x256_S64x1_S64x256_1_0_n_n_0_1_1256_wf

class Facts : Prop extends Facts₀ where

variable [Facts]
-- ==== Proof.LibAffineFold.lean ====
/-
  Folding a normalisation into one multiply-add, on the extended reals (imports the extended-real operations only).

  Normalising a value `x` with a mean `μ`, a variance term `s > 0`, a weight `w` and a bias `b` can be
  written in two ways. The direct one subtracts the mean, divides by the standard deviation `√s`, scales and
  shifts: `((x - μ) / √s) · w + b`. The folded one first forms a scale `w · (1/√s)` and a shift
  `b - μ · scale` (both independent of `x`) and then needs a single multiply-add: `x · scale + shift`.

  For real `x, μ, w, b` and real `s > 0` all the intermediate values are real numbers, the reciprocal square root
  is the reciprocal of the square root, division by `√s ≠ 0` is multiplication by its reciprocal, and the two
  forms agree by distributivity in `ℝ`. (Distributivity is what needs every value finite: on the extended reals
  it fails at the infinities, and for `s ≤ 0` the reciprocal square root and the quotient take different
  conventional values, so the hypothesis `0 < s` cannot be dropped.)
-/
import Idealize.ShloMosaic.PureOps.Ideal

namespace Cert.AffineFold

open Idealize.ShloMosaic

/-- For a real `s > 0` the reciprocal square root on the extended reals is the real `(√s)⁻¹`. -/
theorem rsqrt_pos (s : ℝ) (hs : 0 < s) : Ideal.rsqrt (s : EReal) = (((Real.sqrt s)⁻¹ : ℝ) : EReal) := by
  rw [Ideal.rsqrt_coe, if_neg (not_lt.mpr hs.le), if_neg hs.ne']

/-- For a real `s > 0` the square root on the extended reals is the real `√s`. -/
theorem sqrt_pos (s : ℝ) (hs : 0 < s) : Ideal.sqrt (s : EReal) = ((Real.sqrt s : ℝ) : EReal) := by
  rw [Ideal.sqrt_coe, if_neg (not_lt.mpr hs.le)]

/-- The folded multiply-add equals the direct normalisation: for reals `x μ w b` and `s > 0`,
    `x · (w · s^(-1/2)) + (b - μ · (w · s^(-1/2))) = ((x - μ) / √s) · w + b`. -/
theorem folded_eq_direct (x μ w b s : ℝ) (hs : 0 < s) :
    (x : EReal) * ((w : EReal) * Ideal.rsqrt (s : EReal))
        + ((b : EReal) - (μ : EReal) * ((w : EReal) * Ideal.rsqrt (s : EReal)))
      = Ideal.div ((x : EReal) - (μ : EReal)) (Ideal.sqrt (s : EReal)) * (w : EReal) + (b : EReal) := by
  have hq : Real.sqrt s ≠ 0 := (Real.sqrt_pos.mpr hs).ne'
  rw [rsqrt_pos s hs, sqrt_pos s hs, Ideal.div_coe hq]
  rw [← EReal.coe_mul, ← EReal.coe_mul, ← EReal.coe_mul, ← EReal.coe_sub, ← EReal.coe_add, ← EReal.coe_sub,
    ← EReal.coe_mul, ← EReal.coe_mul, ← EReal.coe_add]
  congr 1
  rw [one_div]
  ring

end Cert.AffineFold
-- ==== Proof.FiniteInputs.lean ====
/-
  What the precondition says of the arguments. The precondition is one `i1` scalar: the conjunction of ten
  reductions by `and` over all entries, nine of them "every |entry| is below +∞" (one per float argument) and the last
  "every entry of the fifth float argument is at least 0". Read at extended reals, the claim that this scalar
  is 1 says that every entry of those arguments is a real number, and that the entries bounded below are
  nonnegative reals.

  The proof: the scalar's one index; the conjunction, word by word; each reduction by "an `and`-reduction into
  one index that is 1 met a 1 at every operand index"; the comparison at an index as an order fact on extended
  reals; the bound's word 0x7F800000 as +∞; and a case split on the entry: at -∞ and at +∞ the absolute value
  `max x (-x)` is +∞, which is not below +∞, so only the real case is left.
-/
import proofs.«156330_j76192719831914_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Proof.FiniteInputs

open Idealize.ShloMosaic
open Cert.Pre_finite_inputs

variable [Cert.Pre_finite_inputs.Facts]

/-- The rank-0 shape has one index. -/
instance subsingleton_scalar_idx : Subsingleton S_.Idx := ⟨fun a b => funext fun d => d.elim0⟩

/-! ### One element -/

/-- The f32 word with exponent field all ones and zero fraction, sign clear, denotes +∞. -/
theorem ofBits_inf_f32 : Ideal.ofBits .f32 0x7F800000#32 = (⊤ : EReal) := by
  simp [Ideal.ofBits, Ideal.ieee]

/-- An extended real whose absolute value `max x (-x)` compares below +∞ is a real number:
    at -∞ the negation is +∞, at +∞ the entry itself is, and +∞ is not below +∞. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The comparison "at least" that came out 1 is the order fact. -/
theorem le_of_cmp_oge (a b : EReal) (h : Ideal.cmp .oge a b = 1#1) : b ≤ a := by
  by_contra hn
  simp [Ideal.cmp, hn] at h

/-! ### One array

Stated over any shape with its reduction to the scalar shape, and over any bound array `y` all of whose
entries are the bound's word (a broadcast of the scalar constant, or the scalar constant itself). -/

section Array

variable {s : Shape} {axes : List (Fin s.rank)}

/-- An array whose "all |x| < +∞" reduction is 1 has a real number at every index. -/
theorem real_of_all_abs_lt (x y : FVec Ideal s .f32) (hy : ∀ i, y i = Ideal.ofBits .f32 0x7F800000#32)
    (init : IVec S_ 1) (hr : s.ReducesTo axes S_) (hu : 0 < S_.numel)
    (e : Host.reduce IntOp.andi (cmpf .olt (Host.absf x) y) init hr hu ValueIdx.ix0 = 1#1) (i : s.Idx) :
    ∃ r : ℝ, x i = (r : EReal) := by
  have hi : Ideal.cmp .olt (max (x i) (-(x i))) (y i) = 1#1 :=
    Host.reduce_andi_all (cmpf .olt (Host.absf x) y) init hr hu ValueIdx.ix0 e i
  rw [hy i, ofBits_inf_f32] at hi
  exact real_of_abs_lt_top (x i) hi

/-- An array whose "all x ≥ 0" reduction is 1 is nonnegative at every index. -/
theorem nonneg_of_all_ge (x y : FVec Ideal s .f32) (hy : ∀ i, y i = Ideal.ofBits .f32 0x00000000#32)
    (init : IVec S_ 1) (hr : s.ReducesTo axes S_) (hu : 0 < S_.numel)
    (e : Host.reduce IntOp.andi (cmpf .oge x y) init hr hu ValueIdx.ix0 = 1#1) (i : s.Idx) :
    (0 : EReal) ≤ x i := by
  have hi : Ideal.cmp .oge (x i) (y i) = 1#1 :=
    Host.reduce_andi_all (cmpf .oge x y) init hr hu ValueIdx.ix0 e i
  rw [hy i, Ideal.ofBits_zero_f32] at hi
  exact le_of_cmp_oge (x i) 0 hi

end Array

/-! ### The precondition -/

/-- Under the precondition every entry of the float arguments named below is a real number, and every entry
    of `x5` a nonnegative real. -/
theorem of_pre (x0 : FVec Ideal S64x256x56x56 .f32) (x1 : IVec S64 32) (x2 x3 x4 x5 : FVec Ideal S256 .f32)
    (x6 x7 : FVec Ideal S1000x256 .f32) (x8 : FVec Ideal S1000 .f32) (x9 : FVec Ideal S_ .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, 0 ≤ r ∧ x5 i = (r : EReal))
    ∧ (∀ i, ∃ r : ℝ, x6 i = (r : EReal)) ∧ (∀ i, ∃ r : ℝ, x7 i = (r : EReal)) ∧ (∀ i, ∃ r : ℝ, x9 i = (r : EReal)) := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e2⟩, e3⟩, e4⟩, e5⟩, e6⟩, e7⟩, _⟩, e9⟩, p5⟩ := h0
  refine ⟨?_, ?_, ?_, ?_, ?_, ?_, ?_, ?_⟩
  · exact real_of_all_abs_lt x0 _ (fun _ => rfl) _ _ _ e0
  · exact real_of_all_abs_lt x2 _ (fun _ => rfl) _ _ _ e2
  · exact real_of_all_abs_lt x3 _ (fun _ => rfl) _ _ _ e3
  · exact real_of_all_abs_lt x4 _ (fun _ => rfl) _ _ _ e4
  · intro i
    obtain ⟨r, hr⟩ := real_of_all_abs_lt x5 _ (fun _ => rfl) _ _ _ e5 i
    have hn : (0 : EReal) ≤ x5 i := nonneg_of_all_ge x5 _ (fun _ => rfl) _ _ _ p5 i
    rw [hr] at hn
    exact ⟨r, EReal.coe_nonneg.1 hn, hr⟩
  · exact real_of_all_abs_lt x6 _ (fun _ => rfl) _ _ _ e6
  · exact real_of_all_abs_lt x7 _ (fun _ => rfl) _ _ _ e7
  · exact real_of_all_abs_lt x9 _ (fun _ => rfl) _ _ _ e9

end Cert.Proof.FiniteInputs
-- ==== Proof.MeanVar.lean ====
/-
  Two facts about the reference's per-(sample, channel) statistics, read at extended reals.

  The mean at an index is a choice, by a condition word, between a blend
  `(1 - α) · g + α · c` (`g` an entry of the global mean, `c` an entry of the class-mean table at a row the
  labels pick, `α` the scalar argument, `1` the word 0x3F800000) and the entry `g` itself. Sums, differences and
  products of real numbers are real, so both branches are real whatever the condition word is.

  The variance at an index is the same choice between `max ε ((1 - α) · v + α · w)` (`v` an entry of the global
  variance, `w` of the class-variance table, `ε` the word 0x3727C5AC, which is 10995116 / 2^40 > 0) and the
  entry `v`, which is a nonnegative real. The first branch is a real at least `ε`, the second a real at least 0:
  either way a nonnegative real, and adding `ε > 0` gives a positive real.

  Which row of a table a gather reads depends on the labels, but whichever it is, it is an entry of the table,
  and every entry of the table is real.
-/
import proofs.«156330_j76192719831914_2_alg».proof.Proof.Gen.ReferenceIdeal.Read
import Idealize.ShloMosaic.PureOps.Ideal
import Idealize.ShloMosaic.Lib.ValueIdx

namespace Cert.Proof.MeanVar

open Idealize.ShloMosaic
open Cert.ReferenceIdeal Cert.ReferenceIdeal.Read

/-! ### Real and nonnegative-real extended reals -/

/-- The extended real is a real number. -/
def IsReal (x : EReal) : Prop := ∃ r : ℝ, x = (r : EReal)

/-- The extended real is a nonnegative real number. -/
def IsNonneg (x : EReal) : Prop := ∃ r : ℝ, 0 ≤ r ∧ x = (r : EReal)

theorem IsNonneg.isReal {a : EReal} (h : IsNonneg a) : IsReal a := by
  obtain ⟨r, _, hr⟩ := h; exact ⟨r, hr⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A choice between two reals is real, whatever the condition word. -/
theorem IsReal.select {a b : EReal} (c : BitVec 1) (ha : IsReal a) (hb : IsReal b) :
    IsReal (Scalar.select c a b) := by
  unfold Scalar.select; split
  · exact ha
  · exact hb

/-- A choice between two nonnegative reals is a nonnegative real, whatever the condition word. -/
theorem IsNonneg.select {a b : EReal} (c : BitVec 1) (ha : IsNonneg a) (hb : IsNonneg b) :
    IsNonneg (Scalar.select c a b) := by
  unfold Scalar.select; split
  · exact ha
  · exact hb

/-! ### The two words -/

/-- The word 0x3F800000 denotes the real number one. -/
theorem one_real : IsReal (Ideal.ofBits .f32 0x3F800000#32) := by
  refine ⟨1, ?_⟩
  simp [Ideal.ofBits, Ideal.ieee, -EReal.coe_mul]; norm_num

/-- The word 0x3727C5AC denotes the positive real 10995116 / 2^40. -/
theorem eps_pos : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- The greater of `ε` and a real is a nonnegative real: it is one of the two, and at least `ε > 0`. -/
theorem nonneg_max_eps {t : EReal} (ht : IsReal t) :
    IsNonneg (max (Ideal.ofBits .f32 0x3727C5AC#32) t) := by
  obtain ⟨e, he, hε⟩ := eps_pos
  obtain ⟨r, rfl⟩ := ht
  rw [hε]
  rcases le_total e r with h | h
  · exact ⟨r, le_trans he.le h, max_eq_right (EReal.coe_le_coe_iff.2 h)⟩
  · exact ⟨e, he.le, max_eq_left (EReal.coe_le_coe_iff.2 h)⟩

/-- A nonnegative real plus `ε` is a positive real. -/
theorem pos_add_eps {a : EReal} (ha : IsNonneg a) :
    ∃ s : ℝ, 0 < s ∧ a + Ideal.ofBits .f32 0x3727C5AC#32 = (s : EReal) := by
  obtain ⟨e, he, hε⟩ := eps_pos
  obtain ⟨r, hr, rfl⟩ := ha
  exact ⟨r + e, add_pos_of_nonneg_of_pos hr he, by rw [hε, EReal.coe_add]⟩

/-! ### The mean -/

section Mean

variable (x1 : (⟨S64, .i32⟩ : BufTy).Contents (Elt Ideal)) (x4 : (⟨S256, .f32⟩ : BufTy).Contents (Elt Ideal))
  (x6 : (⟨S1000x256, .f32⟩ : BufTy).Contents (Elt Ideal)) (x8 : (⟨S1000, .f32⟩ : BufTy).Contents (Elt Ideal))
  (x9 : (⟨S_, .f32⟩ : BufTy).Contents (Elt Ideal))

/-- `1 - α`. -/
theorem v12_real (h9 : ∀ i, ∃ r : ℝ, x9 i = (r : EReal)) (k : S_.Idx) : IsReal (val_main_v12 (F := Ideal) x9 k) := by
  rw [val_main_v12_apply, val_main_cst_2_apply]
  exact IsReal.sub one_real (h9 k)

/-- `(1 - α) · g`. -/
theorem v15_real (h4 : ∀ i, ∃ r : ℝ, x4 i = (r : EReal)) (h9 : ∀ i, ∃ r : ℝ, x9 i = (r : EReal)) (j : S1x256.Idx) :
    IsReal (val_main_v15 (F := Ideal) x4 x9 j) := by
  rw [val_main_v15_apply, val_main_v14_apply, val_main_v13_apply]
  exact IsReal.mul (v12_real x9 h9 _) (h4 _)

/-- A gathered entry of the class-mean table is an entry of the table. -/
theorem v22_real (h6 : ∀ i, ∃ r : ℝ, x6 i = (r : EReal)) (i : S64x256.Idx) : IsReal (val_main_v22 (F := Ideal) x1 x6 i) :=
  h6 _

/-- `α · c`. -/
theorem v24_real (h6 : ∀ i, ∃ r : ℝ, x6 i = (r : EReal)) (h9 : ∀ i, ∃ r : ℝ, x9 i = (r : EReal)) (i : S64x256.Idx) :
    IsReal (val_main_v24 (F := Ideal) x1 x6 x9 i) := by
  rw [val_main_v24_apply, val_main_v23_apply]
  exact IsReal.mul (h9 _) (v22_real x1 x6 h6 i)

/-- The blend `(1 - α) · g + α · c`. -/
theorem v26_real (h4 : ∀ i, ∃ r : ℝ, x4 i = (r : EReal)) (h6 : ∀ i, ∃ r : ℝ, x6 i = (r : EReal))
    (h9 : ∀ i, ∃ r : ℝ, x9 i = (r : EReal)) (i : S64x256.Idx) : IsReal (val_main_v26 (F := Ideal) x1 x4 x6 x9 i) := by
  rw [val_main_v26_apply, val_main_v25_apply]
  exact IsReal.add (v15_real x4 x9 h4 h9 _) (v24_real x1 x6 x9 h6 h9 i)

/-- The other branch: the entry `g` of the global mean. -/
theorem call1_v1_real (h4 : ∀ i, ∃ r : ℝ, x4 i = (r : EReal)) (i : S64x256.Idx) :
    IsReal (val_main_call1_v1 (F := Ideal) x4 i) := by
  rw [val_main_call1_v1_apply, val_main_v44_apply]
  exact h4 _

/-- The mean at every index is a real number. -/
theorem mean_real (h4 : ∀ i, ∃ r : ℝ, x4 i = (r : EReal)) (h6 : ∀ i, ∃ r : ℝ, x6 i = (r : EReal))
    (h9 : ∀ i, ∃ r : ℝ, x9 i = (r : EReal)) (i : S64x256.Idx) :
    ∃ r : ℝ, val_main_v45 (F := Ideal) x1 x4 x6 x8 x9 i = (r : EReal) := by
  rw [val_main_v45_apply]
  exact IsReal.select _ (v26_real x1 x4 x6 x9 h4 h6 h9 i) (call1_v1_real x4 h4 i)

end Mean

/-! ### The variance -/

section Var

variable (x1 : (⟨S64, .i32⟩ : BufTy).Contents (Elt Ideal)) (x5 : (⟨S256, .f32⟩ : BufTy).Contents (Elt Ideal))
  (x7 : (⟨S1000x256, .f32⟩ : BufTy).Contents (Elt Ideal)) (x8 : (⟨S1000, .f32⟩ : BufTy).Contents (Elt Ideal))
  (x9 : (⟨S_, .f32⟩ : BufTy).Contents (Elt Ideal))

/-- `1 - α`. -/
theorem v27_real (h9 : ∀ i, ∃ r : ℝ, x9 i = (r : EReal)) (k : S_.Idx) : IsReal (val_main_v27 (F := Ideal) x9 k) := by
  rw [val_main_v27_apply, val_main_cst_5_apply]
  exact IsReal.sub one_real (h9 k)

/-- `(1 - α) · v`. -/
theorem v30_real (h5 : ∀ i, ∃ r : ℝ, 0 ≤ r ∧ x5 i = (r : EReal)) (h9 : ∀ i, ∃ r : ℝ, x9 i = (r : EReal)) (j : S1x256.Idx) :
    IsReal (val_main_v30 (F := Ideal) x5 x9 j) := by
  rw [val_main_v30_apply, val_main_v29_apply, val_main_v28_apply]
  exact IsReal.mul (v27_real x9 h9 _) (IsNonneg.isReal (h5 _))

/-- A gathered entry of the class-variance table is an entry of the table. -/
theorem v37_real (h7 : ∀ i, ∃ r : ℝ, x7 i = (r : EReal)) (i : S64x256.Idx) : IsReal (val_main_v37 (F := Ideal) x1 x7 i) :=
  h7 _

/-- `α · w`. -/
theorem v39_real (h7 : ∀ i, ∃ r : ℝ, x7 i = (r : EReal)) (h9 : ∀ i, ∃ r : ℝ, x9 i = (r : EReal)) (i : S64x256.Idx) :
    IsReal (val_main_v39 (F := Ideal) x1 x7 x9 i) := by
  rw [val_main_v39_apply, val_main_v38_apply]
  exact IsReal.mul (h9 _) (v37_real x1 x7 h7 i)

/-- The blend `(1 - α) · v + α · w`. -/
theorem v41_real (h5 : ∀ i, ∃ r : ℝ, 0 ≤ r ∧ x5 i = (r : EReal)) (h7 : ∀ i, ∃ r : ℝ, x7 i = (r : EReal))
    (h9 : ∀ i, ∃ r : ℝ, x9 i = (r : EReal)) (i : S64x256.Idx) : IsReal (val_main_v41 (F := Ideal) x1 x5 x7 x9 i) := by
  rw [val_main_v41_apply, val_main_v40_apply]
  exact IsReal.add (v30_real x5 x9 h5 h9 _) (v39_real x1 x7 x9 h7 h9 i)

/-- The blend bounded below by `ε`: a nonnegative real. -/
theorem v42_nonneg (h5 : ∀ i, ∃ r : ℝ, 0 ≤ r ∧ x5 i = (r : EReal)) (h7 : ∀ i, ∃ r : ℝ, x7 i = (r : EReal))
    (h9 : ∀ i, ∃ r : ℝ, x9 i = (r : EReal)) (i : S64x256.Idx) : IsNonneg (val_main_v42 (F := Ideal) x1 x5 x7 x9 i) := by
  rw [val_main_v42_apply, val_main_call0_v1_apply, val_main_call0_v0_apply, val_main_cst_8_apply]
  exact nonneg_max_eps (v41_real x1 x5 x7 x9 h5 h7 h9 i)

/-- The other branch: the entry `v` of the global variance, a nonnegative real. -/
theorem call2_v1_nonneg (h5 : ∀ i, ∃ r : ℝ, 0 ≤ r ∧ x5 i = (r : EReal)) (i : S64x256.Idx) :
    IsNonneg (val_main_call2_v1 (F := Ideal) x5 i) := by
  rw [val_main_call2_v1_apply, val_main_v47_apply]
  exact h5 _

/-- The variance plus `ε` at every index is a positive real. -/
theorem var_eps_pos (h5 : ∀ i, ∃ r : ℝ, 0 ≤ r ∧ x5 i = (r : EReal)) (h7 : ∀ i, ∃ r : ℝ, x7 i = (r : EReal))
    (h9 : ∀ i, ∃ r : ℝ, x9 i = (r : EReal)) (i : S64x256.Idx) :
    ∃ s : ℝ, 0 < s ∧ val_main_v48 (F := Ideal) x1 x5 x7 x8 x9 i + Ideal.ofBits .f32 0x3727C5AC#32 = (s : EReal) := by
  rw [val_main_v48_apply]
  exact pos_add_eps (IsNonneg.select _ (v42_nonneg x1 x5 x7 x9 h5 h7 h9 i) (call2_v1_nonneg x5 h5 i))

end Var

end Cert.Proof.MeanVar
-- ==== Proof.RefRead.lean ====
/-
  The reference's result read at one index.

  The reference subtracts from `x[b, c, h, w]` the per-sample, per-channel mean `μ[b, c]`, divides by the square
  root of the per-sample, per-channel variance plus a small constant, `√(ν[b, c] + ε)`, multiplies by the channel
  weight and adds the channel bias. Every step but the arithmetic is a broadcast: the `[64, 256]` arrays `μ` and
  `√(ν + ε)` are stretched over the two spatial axes, the `[256]` weight and bias over the sample axis and the
  two spatial axes; a broadcast reads its operand at the same coordinate on the axes the operand has. So at
  `(b, c, h, w)` the result is `((x[b,c,h,w] - μ[b,c]) / √(ν[b,c] + ε)) · weight[c] + bias[c]`.

  `μ` and `ν` are kept as the two stages of the reference that compute them (the class-conditional blend of the
  running statistics); nothing here looks inside them.
-/
import proofs.«156330_j76192719831914_2_alg».proof.Proof.Gen.ReferenceIdeal.Read
import Idealize.ShloMosaic.Lib.ValueIdx
import Idealize.ShloMosaic.PureOps.Ideal

noncomputable section

namespace Cert.Proof.RefRead

open Idealize.ShloMosaic Idealize.ShloMosaic.ValueIdx Cert.ReferenceIdeal Cert.ReferenceIdeal.Read

/-- The small constant both programs add to the variance: the f32 nearest to `1e-5`, as its exact binary value. -/
abbrev eps : EReal := Ideal.ofBits .f32 0x3727C5AC#32

/-- The reference's result at `(b, c, h, w)`: subtract the mean, divide by the standard deviation, scale by the
    weight, add the bias. -/
theorem result_apply
    (x0 : (⟨S64x256x56x56, .f32⟩ : BufTy).Contents (Elt Ideal)) (x1 : (⟨S64, .i32⟩ : BufTy).Contents (Elt Ideal))
    (x2 x3 x4 x5 : (⟨S256, .f32⟩ : BufTy).Contents (Elt Ideal)) (x6 x7 : (⟨S1000x256, .f32⟩ : BufTy).Contents (Elt Ideal))
    (x8 : (⟨S1000, .f32⟩ : BufTy).Contents (Elt Ideal)) (x9 : (⟨S_, .f32⟩ : BufTy).Contents (Elt Ideal))
    (b : Fin 64) (c : Fin 256) (h w : Fin 56) :
    val_main_v63 (F := Ideal) x0 x1 x2 x3 x4 x5 x6 x7 x8 x9 (ix4 b c h w)
      = Ideal.div (x0 (ix4 b c h w) - val_main_v45 (F := Ideal) x1 x4 x6 x8 x9 (ix2 b c))
            (Ideal.sqrt (val_main_v48 (F := Ideal) x1 x5 x7 x8 x9 (ix2 b c) + eps))
          * x2 (ix1 c) + x3 (ix1 c) := by
  have e49 : idx_main_v49 (idx_main_v50 (ix4 b c h w)) = ix2 b c :=
    funext fun a => Fin.ext (by match a with | ⟨0, _⟩ => rfl | ⟨1, _⟩ => rfl)
  have e55 : idx_main_v55 (idx_main_v56 (ix4 b c h w)) = ix2 b c :=
    funext fun a => Fin.ext (by match a with | ⟨0, _⟩ => rfl | ⟨1, _⟩ => rfl)
  have e58 : idx_main_v58 (idx_main_v59 (ix4 b c h w)) = ix1 c :=
    funext fun a => Fin.ext (by match a with | ⟨0, _⟩ => rfl)
  have e61 : idx_main_v61 (idx_main_v62 (ix4 b c h w)) = ix1 c :=
    funext fun a => Fin.ext (by match a with | ⟨0, _⟩ => rfl)
  rw [val_main_v63_apply, val_main_v60_apply, val_main_v57_apply, val_main_v51_apply, val_main_v50_apply,
    val_main_v49_apply, val_main_v56_apply, val_main_v55_apply, val_main_v54_apply, val_main_v53_apply,
    val_main_v52_apply, val_main_cst_9_apply, val_main_v59_apply, val_main_v58_apply, val_main_v62_apply,
    val_main_v61_apply, e49, e55, e58, e61]
  rfl

end Cert.Proof.RefRead

end
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.KernelBlocks.lean ====
/-
  The kernel's output array as one function of its three operand arrays.

  The grid has 32 points; point `t` works on samples `2t` and `2t + 1`: a block `[2, 256, 3136]` of the
  flattened input, and the matching blocks `[2, 256, 1]` of the per-sample, per-channel scale and shift columns.
  The body multiplies the input block by the scale column stretched along the last axis and adds the shift
  column stretched the same way, and stores the whole block. So what point `t` writes back is the block of

      affine x sc sh (b, c, k) = x (b, c, k) · sc (b, c, 0) + sh (b, c, 0)

  at samples `2t, 2t + 1`: the three input windows and the output window move together along the sample axis
  and stay at block 0 on the other two. The 32 blocks of two samples cover all 64 samples (sample `b` is in
  block `b / 2`), so after the region the output array is `affine` of the three operand arrays everywhere.
-/
import proofs.«156330_j76192719831914_2_alg».proof.Proof.Gen.KernelIdeal.Frame
import proofs.«156330_j76192719831914_2_alg».proof.Proof.LibRank3Layout
import Idealize.ShloMosaic.Lib.Pipeline.Value
import Idealize.ShloMosaic.Lib.ValueIdx
import Idealize.ShloMosaic.PureOps.Ideal

set_option maxRecDepth 16384

noncomputable section

namespace Cert.Proof.KernelBlocks

open Idealize.ShloMosaic Idealize.ShloMosaic.TcCoe Idealize.SL.Sem Idealize.ShloMosaic.ValueIdx
open Cert.KernelIdeal Cert.KernelIdeal.Gen

/-- The column entry `(b, c, 0)` that belongs to the array index `(b, c, k)`. -/
abbrev col (j : S64x256x3136.Idx) : S64x256x1.Idx :=
  ix3 (⟨(j 0).val, (j 0).isLt⟩ : Fin 64) (⟨(j 1).val, (j 1).isLt⟩ : Fin 256) (0 : Fin 1)

/-- The multiply-add over whole arrays: `x (b, c, k) · sc (b, c, 0) + sh (b, c, 0)`. -/
def affine (x : S64x256x3136.Idx → EReal) (sc sh : S64x256x1.Idx → EReal) : S64x256x3136.Idx → EReal :=
  fun j => x j * sc (col j) + sh (col j)

theorem origin_zero : (![0, 0, 0] : Fin 3 → Nat) = fun _ => 0 := funext fun a => by fin_cases a <;> rfl

/-- The body's stored value at `(p, q, r)` of a block: the input entry times the scale column's entry `(p, q, 0)`
    plus the shift column's. (The two casts to the same shape are identities; a broadcast along the last axis reads
    the column at the same first two coordinates.) -/
theorem pay_apply (x0 : Vec Ideal S2x256x3136 .f32) (x1 x2 : Vec Ideal S2x256x1 .f32)
    (p : Fin 2) (q : Fin 256) (r : Fin 3136) :
    k0_pay1 (F := Ideal) x0 x1 x2 (ix3 p q r) = x0 (ix3 p q r) * x1 (ix3 p q (0 : Fin 1)) + x2 (ix3 p q (0 : Fin 1)) := by
  unfold k0_pay1
  show shapeCast S2x256x3136 x0 _ (ix3 p q r) * broadcastTo S2x256x3136 (shapeCast S2x256x1 x1 _) _ (ix3 p q r)
      + broadcastTo S2x256x3136 (shapeCast S2x256x1 x2 _) _ (ix3 p q r) = _
  rw [shapeCast_self, shapeCast_self, shapeCast_self, Cert.Rank3Layout.broadcastTo_ab1_abc_apply,
    Cert.Rank3Layout.broadcastTo_ab1_abc_apply]

variable (m : (ℓ : Loc nD τ sig) → Buf (Elt Ideal) ℓ)

/-- The printed index maps, decided once over the 32 grid points: every window sits at the output window's block
    along the sample axis and at block 0 on the other two axes. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) = 0 ∧ win0_3.index t (2 : Fin 3) = 0 :=
  (by decide +kernel : ∀ t : Fin grid0.N, _)

/-- Every pair of samples is some point's block. -/
theorem idx_onto : ∀ q0 : Fin 32, ∃ t : Fin cfg0.N, win0_3.index t = ![q0.val, 0, 0] :=
  (by decide +kernel : ∀ q0 : Fin 32, ∃ t : Fin grid0.N, win0_3.index t = ![q0.val, 0, 0])

set_option maxHeartbeats 2000000 in
/-- What point `t` writes back is its block of `affine` of the three operand arrays as the region finds them. -/
theorem flushed_eq (c : Dev nD) (t : Fin cfg0.N) :
    (dats m 0 c).flushed 3 t
      = ((cfg0.win 3).blk t).view.read (Elt Ideal) (affine (V m c main_v61) (V m c main_v59) (V m c main_v60)) := by
  show (cfg0.win 3).cut (grid0.coords t) ((dats m 0 c).after 3 t) = _
  rw [after0_3]
  unfold out0_3
  rw [View.canon_unit_zero origin_zero]
  simp only [View.ld_unit_zero (S := S2x256x3136) origin_zero, View.ld_unit_zero (S := S2x256x1) origin_zero]
  obtain ⟨a0, a1, a2, b0, b1, b2, c0, c1, c2, d0, d1, d2⟩ := idx_facts t
  funext j
  obtain ⟨p, q, r, rfl⟩ : ∃ (p : Fin 2) (q : Fin 256) (r : Fin 3136), j = ix3 p q r := ⟨j 0, j 1, j 2, eq_ix3 j⟩
  have h0 : ((cfg0.win 0).blk t).view.emb (ix3 p q r) = ((cfg0.win 3).blk t).view.emb (ix3 p q r) := by
    funext a; apply Fin.ext
    match a with
    | ⟨0, _⟩ => show win0_0.index t (0 : Fin 3) * 2 + 1 * p.val = win0_3.index t (0 : Fin 3) * 2 + 1 * p.val; omega
    | ⟨1, _⟩ => show win0_0.index t (1 : Fin 3) * 256 + 1 * q.val = win0_3.index t (1 : Fin 3) * 256 + 1 * q.val; omega
    | ⟨2, _⟩ => show win0_0.index t (2 : Fin 3) * 3136 + 1 * r.val = win0_3.index t (2 : Fin 3) * 3136 + 1 * r.val; omega
  have h1 : ((cfg0.win 1).blk t).view.emb (ix3 p q (0 : Fin 1)) = col (((cfg0.win 3).blk t).view.emb (ix3 p q r)) := by
    funext a; apply Fin.ext
    match a with
    | ⟨0, _⟩ => show win0_1.index t (0 : Fin 3) * 2 + 1 * p.val = win0_3.index t (0 : Fin 3) * 2 + 1 * p.val; omega
    | ⟨1, _⟩ => show win0_1.index t (1 : Fin 3) * 256 + 1 * q.val = win0_3.index t (1 : Fin 3) * 256 + 1 * q.val; omega
    | ⟨2, _⟩ => show win0_1.index t (2 : Fin 3) * 1 + 1 * 0 = 0; omega
  have h2 : ((cfg0.win 2).blk t).view.emb (ix3 p q (0 : Fin 1)) = col (((cfg0.win 3).blk t).view.emb (ix3 p q r)) := by
    funext a; apply Fin.ext
    match a with
    | ⟨0, _⟩ => show win0_2.index t (0 : Fin 3) * 2 + 1 * p.val = win0_3.index t (0 : Fin 3) * 2 + 1 * p.val; omega
    | ⟨1, _⟩ => show win0_2.index t (1 : Fin 3) * 256 + 1 * q.val = win0_3.index t (1 : Fin 3) * 256 + 1 * q.val; omega
    | ⟨2, _⟩ => show win0_2.index t (2 : Fin 3) * 1 + 1 * 0 = 0; omega
  -- each input block is its array read where the output block sits: for any three arrays of these shapes
  have key : ∀ (X : S64x256x3136.Idx → EReal) (SC SH : S64x256x1.Idx → EReal),
      X (((cfg0.win 0).blk t).view.emb (ix3 p q r)) * SC (((cfg0.win 1).blk t).view.emb (ix3 p q (0 : Fin 1)))
          + SH (((cfg0.win 2).blk t).view.emb (ix3 p q (0 : Fin 1)))
        = affine X SC SH (((cfg0.win 3).blk t).view.emb (ix3 p q r)) := by
    intro X SC SH
    rw [h0, h1, h2]
    rfl
  refine (pay_apply (iblk m c 0 t) (iblk m c 1 t) (iblk m c 2 t) p q r).trans ?_
  exact key (V m c main_v61) (V m c main_v59) (V m c main_v60)

/-- An index of the array is in point `t`'s block iff each coordinate is in the block's range on its axis. -/
theorem mem_blk (t : Fin cfg0.N) (i : S64x256x3136.Idx) :
    i ∈ ((cfg0.win 3).blk t).view.set
      ↔ ∀ a : Fin 3, win0_3.index t a * S2x256x3136.size a ≤ (i a).val
          ∧ (i a).val < win0_3.index t a * S2x256x3136.size a + S2x256x3136.size a := by
  show i ∈ ((View.whole main_v62).slice (win0_3.rect t)).set ↔ _
  rw [View.set_slice_whole, Rect.mem_set_unit]
  exact Iff.rfl

/-- The 32 blocks cover the array: sample `b` lies in the block of point `b / 2`. -/
theorem covered (i : S64x256x3136.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 3136 := (i 2).isLt
  obtain ⟨t, ht⟩ := idx_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 256 ≤ (i 1).val ∧ (i 1).val < win0_3.index t (1 : Fin 3) * 256 + 256; omega
  | ⟨2, _⟩ => show win0_3.index t (2 : Fin 3) * 3136 ≤ (i 2).val ∧ (i 2).val < win0_3.index t (2 : Fin 3) * 3136 + 3136; omega

/-- After the region the output array is `affine` of the three operand arrays. -/
theorem final (c : Dev nD) :
    (dats m 0 c).arrAt 3 cfg0.N = affine (V m c main_v61) (V m c main_v59) (V m c main_v60) :=
  (dats m 0 c).arrAt_eq_of_cover 3 _ (fun t _ => flushed_eq m c t) covered

end Cert.Proof.KernelBlocks

end
-- ==== Proof.KernelHost.lean ====
/-
  The three operand arrays of the kernel as the region finds them.

  Before the region the host computes, per sample `b` and channel `c`, a mean `μ[b, c]` and a variance `ν[b, c]`
  (the class-conditional blend of the running statistics: the same operations, on the same arguments, as the
  reference's — so they are stated here as the reference's two stages), then

      scale[b, c] = weight[c] · (ν[b, c] + ε)^(-1/2)         shift[b, c] = bias[c] - μ[b, c] · scale[b, c],

  and hands the kernel the input flattened to `[64, 256, 3136]` and the two matrices viewed as `[64, 256, 1]`
  columns. Each of the three buffers is the composition of the host operations that lead to it, applied to the
  argument arrays; no operation before the region writes an argument.
-/
import proofs.«156330_j76192719831914_2_alg».proof.Proof.Gen.KernelIdeal.Frame
import proofs.«156330_j76192719831914_2_alg».proof.Proof.Gen.ReferenceIdeal.Read
import Idealize.ShloMosaic.Lib.StableHlo.Run
import Idealize.ShloMosaic.PureOps.Ideal

set_option maxRecDepth 16384

noncomputable section

namespace Cert.Proof.KernelHost

open Idealize.ShloMosaic Idealize.ShloMosaic.TcCoe Idealize.SL.Sem Idealize.ShloMosaic.StableHlo
open Cert.KernelIdeal Cert.KernelIdeal.Gen

/-- `scale = weight[None, :] · rsqrt(ν + ε)`, with `ν` the reference's variance stage. -/
def scale (x1 : IVec S64 32) (x2 x5 : FVec Ideal S256 .f32) (x7 : FVec Ideal S1000x256 .f32) (x8 : FVec Ideal S1000 .f32)
    (x9 : FVec Ideal S_ .f32) : FVec Ideal S64x256 .f32 :=
  mulf (F := Ideal)
    (broadcastInDim S64x256 ![0, 1] Facts₀.bcast_S1x256_S64x256_0_1 (broadcastInDim S1x256 ![1] Facts₀.bcast_S256_S1x256_1 x2))
    (Host.rsqrt (F := Ideal) (addf (F := Ideal) (Cert.ReferenceIdeal.Read.val_main_v48 (F := Ideal) x1 x5 x7 x8 x9)
      (broadcastInDim S64x256 ![] Facts₀.bcast_S_S64x256 (constant (F := Ideal) S_ .f32 0x3727C5AC#32))))

/-- `shift = bias[None, :] - μ · scale`, with `μ` the reference's mean stage. -/
def shift (x1 : IVec S64 32) (x2 x3 x4 x5 : FVec Ideal S256 .f32) (x6 x7 : FVec Ideal S1000x256 .f32)
    (x8 : FVec Ideal S1000 .f32) (x9 : FVec Ideal S_ .f32) : FVec Ideal S64x256 .f32 :=
  subf (F := Ideal)
    (broadcastInDim S64x256 ![0, 1] Facts₀.bcast_S1x256_S64x256_0_1 (broadcastInDim S1x256 ![1] Facts₀.bcast_S256_S1x256_1 x3))
    (mulf (F := Ideal) (Cert.ReferenceIdeal.Read.val_main_v45 (F := Ideal) x1 x4 x6 x8 x9) (scale x1 x2 x5 x7 x8 x9))

variable (m : (ℓ : Loc nD τ sig) → Buf (Elt Ideal) ℓ)

set_option maxHeartbeats 4000000 in
/-- The first operand: the input array flattened over its two spatial axes. -/
theorem input_eq (c : Dev nD) :
    V m c main_v61 = shapeCast S64x256x3136 (m ((c : Thread nD τ).loc main_arg0)) Facts₀.shapeCasts_S64x256x56x56_S64x256x3136 := by
  show StableHlo.after (List.flatten [hostOps0, hostOps0_1, hostOps0_2, hostOps0_3, hostOps0_4, hostOps0_5, hostOps0_6])
    (fun b => m (c, b)) (Proc.devRef .tc main_v61) = _
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The second operand: the scale matrix as a column per sample and channel. -/
theorem scale_eq (c : Dev nD) :
    V m c main_v59 = shapeCast S64x256x1 (scale (m ((c : Thread nD τ).loc main_arg1)) (m ((c : Thread nD τ).loc main_arg2))
      (m ((c : Thread nD τ).loc main_arg5)) (m ((c : Thread nD τ).loc main_arg7)) (m ((c : Thread nD τ).loc main_arg8))
      (m ((c : Thread nD τ).loc main_arg9))) Facts₀.shapeCasts_S64x256_S64x256x1 := by
  show StableHlo.after (List.flatten [hostOps0, hostOps0_1, hostOps0_2, hostOps0_3, hostOps0_4, hostOps0_5, hostOps0_6])
    (fun b => m (c, b)) (Proc.devRef .tc main_v59) = _
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The third operand: the shift matrix as a column per sample and channel. -/
theorem shift_eq (c : Dev nD) :
    V m c main_v60 = shapeCast S64x256x1 (shift (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))) Facts₀.shapeCasts_S64x256_S64x256x1 := by
  show StableHlo.after (List.flatten [hostOps0, hostOps0_1, hostOps0_2, hostOps0_3, hostOps0_4, hostOps0_5, hostOps0_6])
    (fun b => m (c, b)) (Proc.devRef .tc main_v60) = _
  simp only [hostOps0, hostOps0_1, hostOps0_2, hostOps0_3, hostOps0_4, hostOps0_5, hostOps0_6, List.flatten_cons,
    List.flatten_nil, List.append_nil, List.cons_append, List.nil_append]
  after_results_simp
  rfl

end Cert.Proof.KernelHost

end
-- ==== Proof.KernelValue.lean ====
/-
  The kernel's result, entry by entry.

  After the region the host only reshapes the kernel's `[64, 256, 3136]` output back to `[64, 256, 56, 56]`; the
  input was flattened the same way before the region. Both reshapes keep the row-major position, and
  `(b, c, h, w)` and `(b, c, 56·h + w)` sit at the same position, so entry `(b, c, h, w)` of the result is the
  multiply-add at `(b, c, 56·h + w)`, whose input entry is `x[b, c, h, w]` again. The scale and shift columns at
  `(b, c, 0)` are the matrices' entries `(b, c)`; a `[256]` vector broadcast along a new leading axis and then along
  the sample axis is read at its channel. Altogether

      result[b, c, h, w] = x[b, c, h, w] · (weight[c] · (ν[b, c] + ε)^(-1/2))
                            + (bias[c] - μ[b, c] · (weight[c] · (ν[b, c] + ε)^(-1/2))).
-/
import proofs.«156330_j76192719831914_2_alg».proof.Proof.KernelBlocks
import proofs.«156330_j76192719831914_2_alg».proof.Proof.KernelHost
import Idealize.ShloMosaic.Lib.Pipeline.FrameSuffix

set_option maxRecDepth 16384

noncomputable section

namespace Cert.Proof.KernelValue

open Idealize.ShloMosaic Idealize.ShloMosaic.TcCoe Idealize.SL.Sem Idealize.ShloMosaic.StableHlo Idealize.ShloMosaic.ValueIdx
open Cert.KernelIdeal Cert.KernelIdeal.Gen Cert.Proof.KernelBlocks Cert.Proof.KernelHost

/-- The small constant both programs add to the variance, as its exact binary value. -/
abbrev eps : EReal := Ideal.ofBits .f32 0x3727C5AC#32

/-- A `[256]` vector given a leading unit axis and repeated over the 64 samples is read at its channel. -/
theorem row_apply (x : FVec Ideal S256 .f32) (b : Fin 64) (c : Fin 256) :
    broadcastInDim S64x256 ![0, 1] Facts₀.bcast_S1x256_S64x256_0_1 (broadcastInDim S1x256 ![1] Facts₀.bcast_S256_S1x256_1 x) (ix2 b c)
      = x (ix1 c) :=
  (broadcastInDim_apply _ Facts₀.bcast_S1x256_S64x256_0_1 _ (ix2 b c) (ix2 (0 : Fin 1) c) (fun a => match a with
    | ⟨0, _⟩ => by show (0 : ℕ) = if (1 : ℕ) = 1 then 0 else b.val; rw [if_pos rfl]
    | ⟨1, _⟩ => by show c.val = if (256 : ℕ) = 1 then 0 else c.val; rw [if_neg (by decide)])).trans
  (broadcastInDim_apply _ Facts₀.bcast_S256_S1x256_1 x (ix2 (0 : Fin 1) c) (ix1 c) (fun a => match a with
    | ⟨0, _⟩ => by show c.val = if (256 : ℕ) = 1 then 0 else c.val; rw [if_neg (by decide)]))

/-- The scale matrix at `(b, c)`: the channel's weight times the reciprocal square root of the variance plus `ε`. -/
theorem scale_apply (x1 : IVec S64 32) (x2 x5 : FVec Ideal S256 .f32) (x7 : FVec Ideal S1000x256 .f32)
    (x8 : FVec Ideal S1000 .f32) (x9 : FVec Ideal S_ .f32) (b : Fin 64) (c : Fin 256) :
    scale x1 x2 x5 x7 x8 x9 (ix2 b c)
      = x2 (ix1 c) * Ideal.rsqrt (Cert.ReferenceIdeal.Read.val_main_v48 (F := Ideal) x1 x5 x7 x8 x9 (ix2 b c) + eps) := by
  unfold scale
  show broadcastInDim S64x256 ![0, 1] _ (broadcastInDim S1x256 ![1] _ x2) (ix2 b c)
      * Ideal.rsqrt (Cert.ReferenceIdeal.Read.val_main_v48 (F := Ideal) x1 x5 x7 x8 x9 (ix2 b c) + eps) = _
  rw [row_apply]

/-- The shift matrix at `(b, c)`: the channel's bias minus the mean times the scale. -/
theorem shift_apply (x1 : IVec S64 32) (x2 x3 x4 x5 : FVec Ideal S256 .f32) (x6 x7 : FVec Ideal S1000x256 .f32)
    (x8 : FVec Ideal S1000 .f32) (x9 : FVec Ideal S_ .f32) (b : Fin 64) (c : Fin 256) :
    shift x1 x2 x3 x4 x5 x6 x7 x8 x9 (ix2 b c)
      = x3 (ix1 c) - Cert.ReferenceIdeal.Read.val_main_v45 (F := Ideal) x1 x4 x6 x8 x9 (ix2 b c) * scale x1 x2 x5 x7 x8 x9 (ix2 b c) := by
  unfold shift
  show broadcastInDim S64x256 ![0, 1] _ (broadcastInDim S1x256 ![1] _ x3) (ix2 b c)
      - Cert.ReferenceIdeal.Read.val_main_v45 (F := Ideal) x1 x4 x6 x8 x9 (ix2 b c) * scale x1 x2 x5 x7 x8 x9 (ix2 b c) = _
  rw [row_apply]

/-- The kernel's expression at `(b, c, h, w)`, over the argument arrays: `x · scale + shift`. -/
def entry (x0 : FVec Ideal S64x256x56x56 .f32) (x1 : IVec S64 32) (x2 x3 x4 x5 : FVec Ideal S256 .f32)
    (x6 x7 : FVec Ideal S1000x256 .f32) (x8 : FVec Ideal S1000 .f32) (x9 : FVec Ideal S_ .f32)
    (b : Fin 64) (ch : Fin 256) (h w : Fin 56) : EReal :=
  x0 (ix4 b ch h w) * scale x1 x2 x5 x7 x8 x9 (ix2 b ch) + shift x1 x2 x3 x4 x5 x6 x7 x8 x9 (ix2 b ch)

variable (m : (ℓ : Loc nD τ sig) → Buf (Elt Ideal) ℓ) (ρ : Dev nD → PrngReg)

/-- The kernel's result array on core `c`: the region's output, reshaped. -/
def result (c : Dev nD) : S64x256x56x56.Idx → EReal :=
  shapeCast S64x256x56x56 (affine (V m c main_v61) (V m c main_v59) (V m c main_v60)) Facts₀.shapeCasts_S64x256x3136_S64x256x56x56

/-- What the one host operation after the region leaves in the result buffer. -/
theorem tail_eq (c : Dev nD) :
    Pipeline.afterTail₀ cfgs (dats m) 0 (V0 m) [hostOps1] c main_v63 = result m c := by
  unfold Pipeline.afterTail₀
  show StableHlo.after hostOps1 _ (Proc.devRef .tc main_v63) = _
  after_results
  rw [show Pipeline.withArrays spec0 c (V0 m c) (fun w => (dats m 0 c).arrAt w cfg0.N) (Proc.devRef .tc main_v62) = _ from
    (Pipeline.withArrays_arr spec0 launch0.win.arr_inj c _ _ 3).trans (final m c)]
  rfl

/-- The result at `(b, c, h, w)`: the input entry times the scale, plus the shift. -/
theorem result_apply (c : Dev nD) (b : Fin 64) (ch : Fin 256) (h w : Fin 56) :
    result m c (ix4 b ch h w)
      = entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) b ch h w := by
  have hk : h.val * 56 + w.val < 3136 := by have := h.isLt; have := w.isLt; omega
  have hc : col (ix3 b ch (⟨h.val * 56 + w.val, hk⟩ : Fin 3136)) = ix3 b ch (0 : Fin 1) := by
    funext a; match a with | ⟨0, _⟩ => rfl | ⟨1, _⟩ => rfl | ⟨2, _⟩ => rfl
  have hin : ∀ X : FVec Ideal S64x256x56x56 .f32,
      shapeCast S64x256x3136 X Facts₀.shapeCasts_S64x256x56x56_S64x256x3136 (ix3 b ch (⟨h.val * 56 + w.val, hk⟩ : Fin 3136))
        = X (ix4 b ch h w) := fun X =>
    shapeCast_apply X _ _ _ (by
      rw [Shape.rowMajor_val_three, Shape.rowMajor_val_four]
      show ((b.val * 256 + ch.val) * 56 + h.val) * 56 + w.val = (b.val * 256 + ch.val) * 3136 + (h.val * 56 + w.val)
      omega)
  unfold result
  rw [shapeCast_apply _ Facts₀.shapeCasts_S64x256x3136_S64x256x56x56 (ix4 b ch h w) (ix3 b ch (⟨h.val * 56 + w.val, hk⟩ : Fin 3136)) (by
    rw [Shape.rowMajor_val_three, Shape.rowMajor_val_four]
    show (b.val * 256 + ch.val) * 3136 + (h.val * 56 + w.val) = ((b.val * 256 + ch.val) * 56 + h.val) * 56 + w.val
    omega)]
  unfold affine entry
  rw [input_eq, scale_eq, shift_eq, hc, hin, Cert.Rank3Layout.shapeCast_ab_ab1_apply, Cert.Rank3Layout.shapeCast_ab_ab1_apply]

/-- The kernel's run: every weakly fair execution ends with the result buffer at `result` and every argument as it
    was launched. -/
theorem run : θ_run defs (onTc (τ := τ) (main (F := Ideal))) ⟨m, fun _ => 0, ρ⟩ (fun r => ∀ c : Dev nD,
      r.2.mem ((c.tc : Thread nD τ).loc main_v63) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v63 (Pipeline.mem_restRefs_of main_v63 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Proof.KernelValue

end
-- ==== Proof.Bridge.lean ====
/-
  The two results are one array.

  At `(b, c, h, w)` the kernel computes `x · scale + shift` with `scale = weight[c] · (ν + ε)^(-1/2)` and
  `shift = bias[c] - μ · scale`; the reference computes `((x - μ) / √(ν + ε)) · weight[c] + bias[c]`; `μ = μ[b, c]`
  and `ν = ν[b, c]` are the same two stages on both sides. Under the precondition every entry of the float
  arguments is a real number and the global variance is nonnegative, so `x`, `weight[c]`, `bias[c]` and `μ` are
  real and `ν + ε` is a positive real; for such values the two expressions agree (the affine law).
-/
import proofs.«156330_j76192719831914_2_alg».proof.Defs
import proofs.«156330_j76192719831914_2_alg».proof.Proof.Gen.Pre_finite_inputs
import proofs.«156330_j76192719831914_2_alg».proof.Proof.LibAffineFold
import proofs.«156330_j76192719831914_2_alg».proof.Proof.FiniteInputs
import proofs.«156330_j76192719831914_2_alg».proof.Proof.MeanVar
import proofs.«156330_j76192719831914_2_alg».proof.Proof.RefRead
import proofs.«156330_j76192719831914_2_alg».proof.Proof.KernelValue

set_option maxRecDepth 16384

noncomputable section

namespace Cert.Proof.Bridge

open Idealize.ShloMosaic Idealize.ShloMosaic.TcCoe Idealize.SL.Sem Idealize.ShloMosaic.ValueIdx
open Cert.ReferenceIdeal Cert.ReferenceIdeal.Read

/-- The kernel's expression and the reference's at one index, for arrays whose entries are real and whose global
    variance is nonnegative. -/
theorem pointwise
    (x0 : (⟨S64x256x56x56, .f32⟩ : BufTy).Contents (Elt Ideal)) (x1 : (⟨S64, .i32⟩ : BufTy).Contents (Elt Ideal))
    (x2 x3 x4 x5 : (⟨S256, .f32⟩ : BufTy).Contents (Elt Ideal)) (x6 x7 : (⟨S1000x256, .f32⟩ : BufTy).Contents (Elt Ideal))
    (x8 : (⟨S1000, .f32⟩ : BufTy).Contents (Elt Ideal)) (x9 : (⟨S_, .f32⟩ : BufTy).Contents (Elt Ideal))
    (f0 : ∀ i, ∃ r : ℝ, x0 i = (r : EReal)) (f2 : ∀ i, ∃ r : ℝ, x2 i = (r : EReal)) (f3 : ∀ i, ∃ r : ℝ, x3 i = (r : EReal))
    (f4 : ∀ i, ∃ r : ℝ, x4 i = (r : EReal)) (f5 : ∀ i, ∃ r : ℝ, 0 ≤ r ∧ x5 i = (r : EReal))
    (f6 : ∀ i, ∃ r : ℝ, x6 i = (r : EReal)) (f7 : ∀ i, ∃ r : ℝ, x7 i = (r : EReal)) (f9 : ∀ i, ∃ r : ℝ, x9 i = (r : EReal))
    (b : Fin 64) (c : Fin 256) (h w : Fin 56) :
    x0 (ix4 b c h w) * (x2 (ix1 c) * Ideal.rsqrt (val_main_v48 (F := Ideal) x1 x5 x7 x8 x9 (ix2 b c) + Ideal.ofBits .f32 0x3727C5AC#32))
        + (x3 (ix1 c) - val_main_v45 (F := Ideal) x1 x4 x6 x8 x9 (ix2 b c)
            * (x2 (ix1 c) * Ideal.rsqrt (val_main_v48 (F := Ideal) x1 x5 x7 x8 x9 (ix2 b c) + Ideal.ofBits .f32 0x3727C5AC#32)))
      = Ideal.div (x0 (ix4 b c h w) - val_main_v45 (F := Ideal) x1 x4 x6 x8 x9 (ix2 b c))
            (Ideal.sqrt (val_main_v48 (F := Ideal) x1 x5 x7 x8 x9 (ix2 b c) + Ideal.ofBits .f32 0x3727C5AC#32))
          * x2 (ix1 c) + x3 (ix1 c) := by
  obtain ⟨x, hx⟩ := f0 (ix4 b c h w)
  obtain ⟨wt, hw⟩ := f2 (ix1 c)
  obtain ⟨bi, hb⟩ := f3 (ix1 c)
  obtain ⟨μ, hμ⟩ := Cert.Proof.MeanVar.mean_real x1 x4 x6 x8 x9 f4 f6 f9 (ix2 b c)
  obtain ⟨s, hs, hν⟩ := Cert.Proof.MeanVar.var_eps_pos x1 x5 x7 x8 x9 f5 f7 f9 (ix2 b c)
  rw [hx, hw, hb, hμ, hν]
  exact Cert.AffineFold.folded_eq_direct x μ wt bi s hs

/-- Under the precondition, on every core, the reference's result term at the kernel's arguments is the kernel's
    result array. -/
theorem results_agree (m : (ℓ : Loc Cert.KernelIdeal.nD Cert.KernelIdeal.τ Cert.KernelIdeal.sig) → Buf (Elt Ideal) ℓ)
    (hpre : Cert.Pre_KernelIdeal m) (c : Dev Cert.KernelIdeal.nD) :
    val_main_v63 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
      = Cert.Proof.KernelValue.result m c := by
  obtain ⟨f0, f2, f3, f4, f5, f6, f7, f9⟩ := Cert.Proof.FiniteInputs.of_pre _ _ _ _ _ _ _ _ _ _ (hpre c)
  funext i
  obtain ⟨b, ch, h, w, rfl⟩ : ∃ (b : Fin 64) (ch : Fin 256) (h w : Fin 56), i = ix4 b ch h w := ⟨i 0, i 1, i 2, i 3, eq_ix4 i⟩
  rw [Cert.Proof.RefRead.result_apply]
  refine Eq.trans ?_ (Cert.Proof.KernelValue.result_apply m c b ch h w).symm
  unfold Cert.Proof.KernelValue.entry
  rw [Cert.Proof.KernelValue.shift_apply, Cert.Proof.KernelValue.scale_apply]
  exact (pointwise _ _ _ _ _ _ _ _ _ _ f0 f2 f3 f4 f5 f6 f7 f9 b ch h w).symm

end Cert.Proof.Bridge

end
-- ==== Proof.lean ====
/-
  Class-conditional batch normalisation in evaluation mode, `x : [64, 256, 56, 56]`.

  For sample `b` and channel `c` both programs compute, from the labels, the running statistics and the class
  tables, a mean `μ[b, c]` and a variance `ν[b, c]` (the class blend when the class has been seen often enough and
  the interpolation weight is positive, the global statistics otherwise; the blended variance is bounded below by
  `ε`) — by the same operations on the same arguments. They differ in the last step only. The reference computes

      ((x[b, c, h, w] - μ[b, c]) / √(ν[b, c] + ε)) · weight[c] + bias[c],

  while the kernel's host code folds the normalisation into `scale = weight[c] · (ν[b, c] + ε)^(-1/2)` and
  `shift = bias[c] - μ[b, c] · scale`, and the kernel itself, over the input flattened to `[64, 256, 3136]` in 32
  blocks of two samples, computes the multiply-add `x · scale + shift`; the host reshapes the result back.

  On the extended reals the two agree wherever every value involved is real and `ν[b, c] + ε > 0`: that is
  distributivity in `ℝ` and `s^(-1/2) = 1 / √s` for `s > 0`. The precondition gives exactly this: every float
  argument finite, and the global variance nonnegative (the blended variance is at least `ε` by construction). Where
  `ν + ε ≤ 0` the reference itself divides by zero or takes the square root of a negative number.

  The modules: `LibAffineFold` (the law on the extended reals), `FiniteInputs` (the precondition read as facts about
  entries), `MeanVar` (`μ` real, `ν + ε` a positive real), `RefRead` (the reference's result at an index),
  `KernelHost` (the kernel's three operand arrays), `KernelBlocks` (the region's output array),
  `KernelValue` (the kernel's result at an index and its run), `Bridge` (the two results are one array).
  The three frames are the generated ones; the idealization rewrote nothing, so `preserves` is trivial.
-/
import proofs.«156330_j76192719831914_2_alg».proof.Defs
import proofs.«156330_j76192719831914_2_alg».proof.Proof.Gen.Kernel
import proofs.«156330_j76192719831914_2_alg».proof.Proof.Gen.Kernel.Skeleton
import proofs.«156330_j76192719831914_2_alg».proof.Proof.Gen.Kernel.Launch
import proofs.«156330_j76192719831914_2_alg».proof.Proof.Gen.Kernel.Points
import proofs.«156330_j76192719831914_2_alg».proof.Proof.Gen.Kernel.Frame
import proofs.«156330_j76192719831914_2_alg».proof.Proof.Gen.KernelIdeal
import proofs.«156330_j76192719831914_2_alg».proof.Proof.Gen.KernelIdeal.Skeleton
import proofs.«156330_j76192719831914_2_alg».proof.Proof.Gen.KernelIdeal.Launch
import proofs.«156330_j76192719831914_2_alg».proof.Proof.Gen.KernelIdeal.Points
import proofs.«156330_j76192719831914_2_alg».proof.Proof.Gen.KernelIdeal.Frame
import proofs.«156330_j76192719831914_2_alg».proof.Proof.Gen.ReferenceIdeal
import proofs.«156330_j76192719831914_2_alg».proof.Proof.Gen.Pre_finite_inputs
import proofs.«156330_j76192719831914_2_alg».proof.Proof.Gen.ReferenceIdeal.Run
import proofs.«156330_j76192719831914_2_alg».proof.Proof.Gen.ReferenceIdeal.Read
import proofs.«156330_j76192719831914_2_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the reference's result is the kernel's result
    array: the reference's term read at the kernel's arguments is that array under the precondition. -/
theorem algebraic : Cert.algebraic_KernelIdeal_ReferenceIdeal := by
  intro m ρ m' ρ' hpre hagree
  refine ⟨fun c => Cert.Proof.KernelValue.result m c, Cert.Proof.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v63_eq, a0, a1, a2, a3, a4, a5, a6, a7, a8, a9]
  exact Cert.Proof.Bridge.results_agree m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
